-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S50000x128 .f32) (main_arg1 : IVec S2x800000 32) (main_arg2 : FVec F S128x128 .f32) (main_arg3 : FVec F S128 .f32) (main_arg4 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S5000x128 : Shape := ⟨2, ![5000, 128]⟩

abbrev nBuf : Space → Nat
  | .hbm => 28
  | .vmem => 9
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S128x128, .f32⟩
  | .hbm, ⟨23, _⟩ => ⟨S128x128, .bf16⟩
  | .hbm, ⟨24, _⟩ => ⟨S128x128, .f32⟩
  | .hbm, ⟨25, _⟩ => ⟨S128x128, .bf16⟩
  | .hbm, ⟨26, _⟩ => ⟨S1x128, .f32⟩
  | .hbm, ⟨27, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S128x128, .bf16⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S128x128_S128x128_1_0 : S128x128.Transposes [1, 0] S128x128
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 33
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S128x128, .f32⟩
  | .hbm, ⟨23, _⟩ => ⟨S50000x128, .f32⟩
  | .hbm, ⟨24, _⟩ => ⟨S1x128, .f32⟩
  | .hbm, ⟨25, _⟩ => ⟨S50000x128, .f32⟩
  | .hbm, ⟨26, _⟩ => ⟨S50000x128, .f32⟩
  | .hbm, ⟨27, _⟩ => ⟨S128x128, .f32⟩
  | .hbm, ⟨28, _⟩ => ⟨S50000x128, .f32⟩
  | .hbm, ⟨29, _⟩ => ⟨S50000x128, .f32⟩
  | .hbm, ⟨30, _⟩ => ⟨S_, .f32⟩
  | .hbm, ⟨31, _⟩ => ⟨S50000x128, .f32⟩
  | .hbm, ⟨32, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_cst : Ref sig .tc := ⟨.hbm, 30, rfl⟩
abbrev main_call0_v0 : Ref sig .tc := ⟨.hbm, 31, rfl⟩
abbrev main_v22 : Ref sig .tc := ⟨.hbm, 32, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LayerSpec.lean ====
/-
  One graph-convolution layer as a single function of its arrays, over the extended reals.

  For a node `r` and an output feature `q`,

      out r q = max ( Σ_k agg r k · W_rel q k  +  Σ_k x r k · W_root q k  +  b q , 0 )

  where `agg` is the sum of the neighbours' feature rows (it enters here only as an array: the
  two programs build it by the same gather and segment sum, which is never opened), the two sums
  run over the 128 input features, and the weights are read as stored, `[out, in]`, so that the
  contraction is against the weight matrix's transpose.

  The reference adds the bias between the two products; `regroup` is the one law that joins the
  two spellings: a sum of three extended reals does not depend on the order of its last two terms
  (addition on the extended reals is commutative and associative, infinities included, so no
  finiteness is needed anywhere).
-/
import Idealize.ShloMosaic.PureOps.Ideal
import Idealize.ShloMosaic.Lib.ValueIdx

noncomputable section

namespace Cert.GraphConv

open Idealize.ShloMosaic Idealize.ShloMosaic.ValueIdx

/-- Node features, and the layer's output: 50000 nodes by 128 features. -/
abbrev Nodes : Shape := ⟨2, ![50000, 128]⟩
/-- A weight matrix as stored: output feature by input feature. -/
abbrev Weights : Shape := ⟨2, ![128, 128]⟩
/-- The bias, one entry per output feature. -/
abbrev Bias : Shape := ⟨1, ![128]⟩

/-- The layer's output at node `r`, feature `q`. -/
def entry (agg x : Nodes.Idx → EReal) (wrel wroot : Weights.Idx → EReal) (b : Bias.Idx → EReal)
    (r : Fin 50000) (q : Fin 128) : EReal :=
  max ((∑ k : Fin 128, agg (ix2 r k) * wrel (ix2 q k)) + (∑ k : Fin 128, x (ix2 r k) * wroot (ix2 q k)) + b (ix1 q)) 0

/-- The layer's output array. -/
def layer (agg x : Nodes.Idx → EReal) (wrel wroot : Weights.Idx → EReal) (b : Bias.Idx → EReal) :
    Nodes.Idx → EReal :=
  fun i => entry agg x wrel wroot b (i 0) (i 1)

theorem layer_apply (agg x : Nodes.Idx → EReal) (wrel wroot : Weights.Idx → EReal) (b : Bias.Idx → EReal)
    (r : Fin 50000) (q : Fin 128) : layer agg x wrel wroot b (ix2 r q) = entry agg x wrel wroot b r q := rfl

/-- The bias may be added before or after the second product. -/
theorem regroup (s₁ s₂ c : EReal) : s₁ + c + s₂ = s₁ + s₂ + c := add_right_comm s₁ c s₂

end Cert.GraphConv

end
-- ==== Proof.BodyEntry.lean ====
/-
  The kernel body's stored value, one entry at a time.

  On a block of 5000 nodes the body stores, at row `p` and feature `q`,

      max ( (Σ_k a p k · u k q  +  Σ_k y p k · v k q)  +  c 0 q , 0 )

  of its five loaded blocks: `a` the block of summed neighbour rows, `y` the block of node
  features, `u`, `v` the two (already transposed) weight matrices, `c` the bias as one row.
  Narrowing a block to a shorter float format changes nothing at the exact values; a matrix
  product accumulated into zeros is the plain sum over the contracted index; the bias row is
  repeated down the block's rows.
-/
import proofs.«181005_j45200235823724_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.GraphConv.Body

open Cert.KernelIdeal Cert.KernelIdeal.Gen
open Idealize.ShloMosaic Idealize.ShloMosaic.ValueIdx

/-- The left operand's row is the output's row. -/
theorem lhs_row (i : S5000x128.Idx) (κ : dot_S5000x128_S128x128_S5000x128_1_0_0_1_n_n.contr.Idx) :
    (dot_S5000x128_S128x128_S5000x128_1_0_0_1_n_n.lhsIdx i κ 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The right operand's column is the output's column. -/
theorem rhs_col (i : S5000x128.Idx) (κ : dot_S5000x128_S128x128_S5000x128_1_0_0_1_n_n.contr.Idx) :
    (dot_S5000x128_S128x128_S5000x128_1_0_0_1_n_n.rhsIdx i κ 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A 5000×128 block times a 128×128 matrix, accumulated into zeros, at `(p, q)`: the sum over the
    128 contracted positions of the block's row `p` against the matrix's column `q`. -/
theorem matmul_entry (l : FVec Ideal S5000x128 .bf16) (w : FVec Ideal S128x128 .bf16) (p : Fin 5000) (q : Fin 128) :
    FloatOps.matmul dot_S5000x128_S128x128_S5000x128_1_0_0_1_n_n none l w (constant S5000x128 .f32 0x00000000#32) (ix2 p q)
      = ∑ k : Fin 128, l (ix2 p k) * w (ix2 k q) := by
  rw [Ideal.matmul_constant_zero_apply,
    ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q)
      ((ValueIdx.contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (dot_S5000x128_S128x128_S5000x128_1_0_0_1_n_n.lhsIdx_val_of_single rfl _ _).trans hk)
  have er : dot_S5000x128_S128x128_S5000x128_1_0_0_1_n_n.rhsIdx (ix2 p q)
      ((ValueIdx.contrEquiv1 dot_S5000x128_S128x128_S5000x128_1_0_0_1_n_n 128 rfl rfl).symm k) = ix2 k q :=
    funext fun a => Fin.ext (by
      match a with
      | ⟨0, _⟩ => exact (dot_S5000x128_S128x128_S5000x128_1_0_0_1_n_n.rhsIdx_val_of_single rfl _ _).trans hk
      | ⟨1, _⟩ => exact rhs_col _ _)
  rw [el, er]

/-- The body's stored value at row `p`, feature `q` of the block. -/
theorem stored_entry (a y : Vec Ideal S5000x128 .f32) (u v : Vec Ideal S128x128 .bf16) (c : Vec Ideal S1x128 .f32)
    (p : Fin 5000) (q : Fin 128) :
    k0_pay1 (F := Ideal) a y u v c (ix2 p q)
      = max ((∑ k : Fin 128, a (ix2 p k) * u (ix2 k q)) + (∑ k : Fin 128, y (ix2 p k) * v (ix2 k q)) + c (ix2 (0 : Fin 1) q)) 0 := by
  unfold k0_pay1
  rw [maximumf_apply, addf_apply, addf_apply, broadcast_apply]
  refine congrArg₂ max (congrArg₂ (· + ·) (congrArg₂ (· + ·) ?_ ?_) ?_) Ideal.ofBits_zero_f32
  · refine (matmul_entry _ _ p q).trans ?_
    rw [shapeCast_self, shapeCast_self]
    rfl
  · refine (matmul_entry _ _ p q).trans ?_
    rw [shapeCast_self]
    rfl
  · rw [shapeCast_self]
    exact broadcastTo_1b_ab_apply c _ p q

end Cert.GraphConv.Body

end
-- ==== Proof.Staged.lean ====
/-
  What the kernel's windows find in their arrays when the call starts.

  Before the call the program transposes each stored weight matrix (and narrows it to a shorter
  float format, which changes nothing at the exact values) and gives the bias a leading axis of
  length one. So the two weight windows hold `W q k` at position `(k, q)`, and the bias window
  holds `b q` at position `(0, q)`.
-/
import proofs.«181005_j45200235823724_2_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

namespace Cert.GraphConv.Staged

open Cert.KernelIdeal Cert.KernelIdeal.Gen
open Idealize.ShloMosaic Idealize.ShloMosaic.TcCoe Idealize.ShloMosaic.StableHlo Idealize.ShloMosaic.ValueIdx

variable (m : (ℓ : Loc nD τ sig) → Buf (Elt Ideal) ℓ)

/-- The first weight window's array is the transpose of the stored `W_rel`. -/
theorem wrel_array (c : Dev nD) :
    (V m c main_v15 : S128x128.Idx → EReal)
      = truncf (F := Ideal) .bf16 (transpose S128x128 [1, 0] (m ((c : Thread nD τ).loc main_arg2)) transposes_S128x128_S128x128_1_0) bitsLt_bf16_f32 := by
  dsimp only [V, hostOps0]
  after_results <;> rfl

/-- The second weight window's array is the transpose of the stored `W_root`. -/
theorem wroot_array (c : Dev nD) :
    (V m c main_v17 : S128x128.Idx → EReal)
      = truncf (F := Ideal) .bf16 (transpose S128x128 [1, 0] (m ((c : Thread nD τ).loc main_arg4)) transposes_S128x128_S128x128_1_0) bitsLt_bf16_f32 := by
  dsimp only [V, hostOps0]
  after_results <;> rfl

/-- The bias window's array is the bias with a leading axis of length one. -/
theorem bias_array (c : Dev nD) :
    (V m c main_v18 : S1x128.Idx → EReal)
      = shapeCast S1x128 (m ((c : Thread nD τ).loc main_arg3)) shapeCasts_S128_S1x128 := by
  dsimp only [V, hostOps0]
  after_results <;> rfl

/-- Position `(k, q)` of the first weight window's array is `W_rel q k`. -/
theorem wrel_apply (c : Dev nD) (k q : Fin 128) :
    (V m c main_v15 : S128x128.Idx → EReal) (ix2 k q) = (m ((c : Thread nD τ).loc main_arg2) : S128x128.Idx → EReal) (ix2 q k) := by
  rw [wrel_array, truncf_apply]
  exact transpose_ix2_apply _ _ k q

/-- Position `(k, q)` of the second weight window's array is `W_root q k`. -/
theorem wroot_apply (c : Dev nD) (k q : Fin 128) :
    (V m c main_v17 : S128x128.Idx → EReal) (ix2 k q) = (m ((c : Thread nD τ).loc main_arg4) : S128x128.Idx → EReal) (ix2 q k) := by
  rw [wroot_array, truncf_apply]
  exact transpose_ix2_apply _ _ k q

/-- Position `(0, q)` of the bias window's array is `b q`. -/
theorem bias_apply (c : Dev nD) (q : Fin 128) :
    (V m c main_v18 : S1x128.Idx → EReal) (ix2 (0 : Fin 1) q) = (m ((c : Thread nD τ).loc main_arg3) : S128.Idx → EReal) (ix1 q) := by
  rw [bias_array]
  exact shapeCast_a_1a_apply _ _ 0 q

end Cert.GraphConv.Staged

end
-- ==== Proof.KernelLayer.lean ====
/-
  The kernel's result array is the layer.

  The call runs over ten blocks of 5000 nodes. At block `t` the body sees rows `5000 t … 5000 t + 4999`
  of the summed-neighbour array and of the node features, the two transposed weight matrices whole
  and the bias row, and stores one block of the output; row `p` of that block is the layer's entry
  for node `5000 t + p`. The ten blocks tile the 50000 rows, so the array ends holding the layer.

  The first part is about ANY five arrays the windows may find (the arithmetic does not care what
  they hold); the second puts in the arrays the call really finds.
-/
import proofs.«181005_j45200235823724_2_alg».proof.Proof.Gen.KernelIdeal.Value
import proofs.«181005_j45200235823724_2_alg».proof.Proof.LayerSpec
import proofs.«181005_j45200235823724_2_alg».proof.Proof.BodyEntry
import proofs.«181005_j45200235823724_2_alg».proof.Proof.Staged

noncomputable section

namespace Cert.GraphConv.Kernel

open Cert.KernelIdeal Cert.KernelIdeal.Gen Cert.GraphConv
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- Where each window's block sits at grid point `t`: the two row-blocked inputs and the output at
    block row `t`, the weights and the bias always at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## Any five arrays: blocks, one point's store, one point's write-back -/

section AnyArrays

variable (A X : S50000x128.Idx → EReal) (U W : S128x128.Idx → EReal) (B : S1x128.Idx → EReal)

/-- The layer over the arrays as the windows see them: weights already transposed, the bias a row. -/
def layerT : S50000x128.Idx → EReal := fun i =>
  max ((∑ k : Fin 128, A (ix2 (i 0) k) * U (ix2 k (i 1))) + (∑ k : Fin 128, X (ix2 (i 0) k) * W (ix2 k (i 1)))
    + B (ix2 (0 : Fin 1) (i 1))) 0

theorem layerT_apply (r : Fin 50000) (q : Fin 128) :
    layerT A X U W B (ix2 r q)
      = max ((∑ k : Fin 128, A (ix2 r k) * U (ix2 k q)) + (∑ k : Fin 128, X (ix2 r k) * W (ix2 k q)) + B (ix2 (0 : Fin 1) q)) 0 := rfl

/-- With the weights' transposes and the bias row read back to the stored weights and the bias, it
    is the layer. -/
theorem layerT_eq_layer (wrel wroot : S128x128.Idx → EReal) (b : S128.Idx → EReal)
    (hU : ∀ k q : Fin 128, U (ix2 k q) = wrel (ix2 q k)) (hW : ∀ k q : Fin 128, W (ix2 k q) = wroot (ix2 q k))
    (hB : ∀ q : Fin 128, B (ix2 (0 : Fin 1) q) = b (ix1 q)) :
    layerT A X U W B = layer A X wrel wroot b := by
  funext i
  obtain ⟨r, q, rfl⟩ : ∃ (r : Fin 50000) (q : Fin 128), i = ix2 r q := ⟨i 0, i 1, eq_ix2 i⟩
  rw [layerT_apply, layer_apply]
  unfold entry
  simp only [hU, hW, hB]

/-- Row `p` of block `t` of the first window's array is its row `5000 t + p`. -/
theorem rows0 (t : Fin cfg0.N) (p : Fin 5000) (k : Fin 128) (r : Fin 50000) (hr : r.val = 5000 * t.val + p.val) :
    (((cfg0.win 0).blk t).view.read (Elt Ideal) A : S5000x128.Idx → EReal) (ix2 p k) = A (ix2 r k) := by
  obtain ⟨e0, e1, -⟩ := idx_facts t
  rw [View.read_apply]
  refine congrArg A (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The same for the second window. -/
theorem rows1 (t : Fin cfg0.N) (p : Fin 5000) (k : Fin 128) (r : Fin 50000) (hr : r.val = 5000 * t.val + p.val) :
    (((cfg0.win 1).blk t).view.read (Elt Ideal) X : S5000x128.Idx → EReal) (ix2 p k) = X (ix2 r k) := by
  obtain ⟨-, -, e0, e1, -⟩ := idx_facts t
  rw [View.read_apply]
  refine congrArg X (funext fun a => Fin.ext ?_)
  match a with
  | ⟨0, _⟩ => show win0_1.index t (0 : Fin 2) * 5000 + 1 * p.val = r.val; rw [e0, hr]; omega
  | ⟨1, _⟩ => show win0_1.index t (1 : Fin 2) * 128 + 1 * k.val = k.val; rw [e1]; omega

/-- The third window's one block is its whole array. -/
theorem whole2 (t : Fin cfg0.N) (k q : Fin 128) :
    (((cfg0.win 2).blk t).view.read (Elt Ideal) U : S128x128.Idx → EReal) (ix2 k q) = U (ix2 k q) := by
  obtain ⟨-, -, -, -, e0, e1, -⟩ := idx_facts t
  rw [View.read_apply]
  refine congrArg U (funext fun a => Fin.ext ?_)
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- So is the fourth's. -/
theorem whole3 (t : Fin cfg0.N) (k q : Fin 128) :
    (((cfg0.win 3).blk t).view.read (Elt Ideal) W : S128x128.Idx → EReal) (ix2 k q) = W (ix2 k q) := by
  obtain ⟨-, -, -, -, -, -, e0, e1, -⟩ := idx_facts t
  rw [View.read_apply]
  refine congrArg W (funext fun a => Fin.ext ?_)
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- And the fifth's, the bias row. -/
theorem whole4 (t : Fin cfg0.N) (q : Fin 128) :
    (((cfg0.win 4).blk t).view.read (Elt Ideal) B : S1x128.Idx → EReal) (ix2 (0 : Fin 1) q) = B (ix2 (0 : Fin 1) q) := by
  obtain ⟨-, -, -, -, -, -, -, -, e0, e1, -⟩ := idx_facts t
  rw [View.read_apply]
  refine congrArg B (funext fun a => Fin.ext ?_)
  match a with
  | ⟨0, _⟩ => show win0_4.index t (0 : Fin 2) * 1 + 1 * 0 = 0; rw [e0]
  | ⟨1, _⟩ => show win0_4.index t (1 : Fin 2) * 128 + 1 * q.val = q.val; rw [e1]; omega

/-- What the body stores at row `p`, feature `q` of block `t` is the layer's entry for node `5000 t + p`. -/
theorem point_entry (t : Fin cfg0.N) (p : Fin 5000) (q : Fin 128) (r : Fin 50000) (hr : r.val = 5000 * t.val + p.val) :
    k0_pay1 (F := Ideal) (((cfg0.win 0).blk t).view.read (Elt Ideal) A) (((cfg0.win 1).blk t).view.read (Elt Ideal) X)
        (((cfg0.win 2).blk t).view.read (Elt Ideal) U) (((cfg0.win 3).blk t).view.read (Elt Ideal) W)
        (((cfg0.win 4).blk t).view.read (Elt Ideal) B) (ix2 p q)
      = layerT A X U W B (ix2 r q) := by
  refine (Body.stored_entry (((cfg0.win 0).blk t).view.read (Elt Ideal) A) (((cfg0.win 1).blk t).view.read (Elt Ideal) X)
        (((cfg0.win 2).blk t).view.read (Elt Ideal) U) (((cfg0.win 3).blk t).view.read (Elt Ideal) W)
        (((cfg0.win 4).blk t).view.read (Elt Ideal) B) p q).trans ?_
  rw [layerT_apply]
  refine congrArg₂ max (congrArg₂ (· + ·) (congrArg₂ (· + ·) (Finset.sum_congr rfl fun k _ => ?_) (Finset.sum_congr rfl fun k _ => ?_)) ?_) rfl
  · exact congrArg₂ (· * ·) (rows0 A t p k r hr) (whole2 U t k q)
  · exact congrArg₂ (· * ·) (rows1 X t p k r hr) (whole3 W t k q)
  · exact whole4 B t q

/-- What grid point `t` writes back, from the five blocks it reads, is block `t` of the layer. -/
theorem flushed_any (t : Fin cfg0.N) :
    (cfg0.win 5).cut (grid0.coords t)
        (out0_5 (F := Ideal) (((cfg0.win 0).blk t).view.read (Elt Ideal) A) (((cfg0.win 1).blk t).view.read (Elt Ideal) X)
          (((cfg0.win 2).blk t).view.read (Elt Ideal) U) (((cfg0.win 3).blk t).view.read (Elt Ideal) W)
          (((cfg0.win 4).blk t).view.read (Elt Ideal) B))
      = ((cfg0.win 5).blk t).view.read (Elt Ideal) (layerT A X U W B) := by
  unfold out0_5
  rw [View.canon_unit_zero hz]
  simp only [View.ld_unit_zero (S := S5000x128) hz, View.ld_unit_zero (S := S128x128) hz, View.ld_unit_zero (S := S1x128) hz]
  obtain ⟨-, -, -, -, -, -, -, -, -, -, e0, e1⟩ := idx_facts t
  funext j
  have hj0 : (j 0).val < 5000 := (j 0).isLt
  have hj1 : (j 1).val < 128 := (j 1).isLt
  have ht : t.val < 10 := lt_of_lt_of_eq t.isLt N_0
  rw [View.read_apply]
  show k0_pay1 (F := Ideal) _ _ _ _ _ ((cfg0.win 5).xinj (grid0.coords t) j) = layerT A X U W B (((cfg0.win 5).blk t).view.emb j)
  have hL : (cfg0.win 5).xinj (grid0.coords t) j = ix2 (⟨(j 0).val, hj0⟩ : Fin 5000) (⟨(j 1).val, hj1⟩ : Fin 128) :=
    funext fun a => match a with | ⟨0, _⟩ => rfl | ⟨1, _⟩ => rfl
  have hR : ((cfg0.win 5).blk t).view.emb j
      = ix2 (⟨5000 * t.val + (j 0).val, by omega⟩ : Fin 50000) (⟨(j 1).val, hj1⟩ : Fin 128) :=
    funext fun a => Fin.ext (by
      match a with
      | ⟨0, _⟩ => show win0_5.index t (0 : Fin 2) * 5000 + 1 * (j 0).val = 5000 * t.val + (j 0).val; rw [e0]; omega
      | ⟨1, _⟩ => show win0_5.index t (1 : Fin 2) * 128 + 1 * (j 1).val = (j 1).val; rw [e1]; omega)
  rw [hL, hR]
  exact point_entry A X U W B t _ _ _ rfl

end AnyArrays

/-! ## The cover -/

/-- An index is in point `t`'s output block iff each coordinate is in the block's range. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v19).slice (win0_5.rect t)).set ↔ _
  rw [View.set_slice_whole, Rect.mem_set_unit]
  exact Iff.rfl

/-- Node `r` lies in block `r / 5000`: the ten blocks cover the array. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : grid0.N = 10 := N_0
  obtain ⟨t, htv⟩ : ∃ t : Fin cfg0.N, t.val = (i 0).val / 5000 := ⟨⟨(i 0).val / 5000, by show _ < grid0.N; rw [hN]; omega⟩, rfl⟩
  obtain ⟨-, -, -, -, -, -, -, -, -, -, e0, e1⟩ := idx_facts t
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; rw [e0, htv]; omega
  | ⟨1, _⟩ => show win0_5.index t (1 : Fin 2) * 128 ≤ (i 1).val ∧ (i 1).val < win0_5.index t (1 : Fin 2) * 128 + 128; rw [e1]; omega

/-! ## The arrays the call finds -/

variable (m : (ℓ : Loc nD τ sig) → Buf (Elt Ideal) ℓ) (ρ : Dev nD → PrngReg)

/-- The layer over the five arrays as the call finds them, each named by its window. -/
abbrev staged (c : Dev nD) : S50000x128.Idx → EReal :=
  layerT (V m c (Pipeline.arrRef spec0 0)) (V m c (Pipeline.arrRef spec0 1)) (V m c (Pipeline.arrRef spec0 2))
    (V m c (Pipeline.arrRef spec0 3)) (V m c (Pipeline.arrRef spec0 4))

/-- What grid point `t` writes back is block `t` of it. -/
theorem flushed_eq (c : Dev nD) (t : Fin cfg0.N) :
    (dats m 0 c).flushed 5 t = ((cfg0.win 5).blk t).view.read (Elt Ideal) (staged m c) := by
  rw [Cert.KernelIdeal.Value.flushed5]
  exact flushed_any _ _ _ _ _ t

/-- So the output array after the run is it. -/
theorem final_staged (c : Dev nD) : (dats m 0 c).arrAt 5 cfg0.N = staged m c :=
  (dats m 0 c).arrAt_eq_of_cover 5 (staged m c) (fun t _ => flushed_eq m c t) cover

/-- The array the output ends holding: the layer of the summed-neighbour array as the call finds it
    and of the program's arguments. -/
abbrev out (c : Dev nD) : S50000x128.Idx → EReal :=
  layer (V m c main_v13) (m ((c : Thread nD τ).loc main_arg0)) (m ((c : Thread nD τ).loc main_arg2))
    (m ((c : Thread nD τ).loc main_arg4)) (m ((c : Thread nD τ).loc main_arg3))

/-- The five windows' arrays are the summed-neighbour array, the node features, the two transposed
    weight matrices and the bias row; read back to the arguments, the staged layer is the layer. -/
theorem staged_eq_out (c : Dev nD) : staged m c = out m c := by
  have e := layerT_eq_layer (V m c main_v13) (V m c main_arg0) (V m c main_v15) (V m c main_v17) (V m c main_v18)
    (m ((c : Thread nD τ).loc main_arg2)) (m ((c : Thread nD τ).loc main_arg4)) (m ((c : Thread nD τ).loc main_arg3))
    (Staged.wrel_apply m c) (Staged.wroot_apply m c) (Staged.bias_apply m c)
  rw [V_main_arg0 m c] at e
  exact e

/-- The kernel's run, read: the result array at the layer, the arguments unchanged. -/
theorem run : θ_run defs (onTc (τ := τ) (main (F := Ideal))) ⟨m, fun _ => 0, ρ⟩ fun r => ∀ c : Dev nD,
      r.2.mem ((c : Thread nD τ).loc main_v19) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1.trans (final_staged m c)).trans (staged_eq_out m c), (h c).2⟩)
    (Cert.KernelIdeal.Value.run_blocks m ρ)

end Cert.GraphConv.Kernel

end
-- ==== Proof.RefLayer.lean ====
/-
  The reference program's result is the layer.

  Read one operation at a time, the reference's last stage at node `r`, feature `q` is

      max ( (Σ_k agg r k · W_relᵀ k q  +  b q)  +  Σ_k x r k · W_rootᵀ k q , 0 )

  with `agg` the stage that holds the segment sum (left as it is), `Wᵀ k q = W q k` the transposes
  read at an index, and the bias broadcast first to one row and then down the rows. That is the
  layer's entry with its last two summands exchanged.
-/
import proofs.«181005_j45200235823724_2_alg».proof.Proof.Gen.ReferenceIdeal.Read
import proofs.«181005_j45200235823724_2_alg».proof.Proof.LayerSpec

noncomputable section

namespace Cert.GraphConv.Ref

open Cert.ReferenceIdeal Cert.ReferenceIdeal.Read Cert.GraphConv
open Idealize.ShloMosaic Idealize.ShloMosaic.ValueIdx

/-- The left operand of either product is read at row `r`, column `k`. -/
theorem lidx15 (r : Fin 50000) (q k : Fin 128) : lidx_main_v15 (ix2 r q) k = ix2 r k :=
  funext fun a => match a with | ⟨0, _⟩ => rfl | ⟨1, _⟩ => rfl

theorem lidx20 (r : Fin 50000) (q k : Fin 128) : lidx_main_v20 (ix2 r q) k = ix2 r k :=
  funext fun a => match a with | ⟨0, _⟩ => rfl | ⟨1, _⟩ => rfl

/-- The transposed weight at `(k, q)` is the stored weight at `(q, k)`. -/
theorem ridx15 (r : Fin 50000) (q k : Fin 128) : idx_main_v14 (ridx_main_v15 (ix2 r q) k) = ix2 q k :=
  funext fun a => match a with | ⟨0, _⟩ => rfl | ⟨1, _⟩ => rfl

theorem ridx20 (r : Fin 50000) (q k : Fin 128) : idx_main_v19 (ridx_main_v20 (ix2 r q) k) = ix2 q k :=
  funext fun a => match a with | ⟨0, _⟩ => rfl | ⟨1, _⟩ => rfl

/-- The bias broadcast to a row and then to every node is read at the feature alone. -/
theorem bidx (r : Fin 50000) (q : Fin 128) : idx_main_v16 (idx_main_v17 (ix2 r q)) = ix1 q :=
  funext fun a => match a with | ⟨0, _⟩ => rfl

/-- The reference's last stage is the layer of its segment-sum stage, the node features, the two
    stored weight matrices and the bias. -/
theorem result_eq (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v22 (F := Ideal) x0 x1 x2 x3 x4 = layer (val_main_v13 (F := Ideal) x0 x1) x0 x2 x4 x3 := by
  funext i
  obtain ⟨r, q, rfl⟩ : ∃ (r : Fin 50000) (q : Fin 128), i = ix2 r q := ⟨i 0, i 1, eq_ix2 i⟩
  rw [layer_apply, val_main_v22_apply, val_main_v21_apply, val_main_v18_apply, val_main_v15_apply, val_main_v20_apply,
    val_main_v17_apply, val_main_v16_apply, val_main_call0_v0_apply, val_main_call0_cst_apply]
  simp only [val_main_v14_apply, val_main_v19_apply, lidx15, lidx20, ridx15, ridx20, bidx]
  show max ((∑ k : Fin 128, _ * _) + x3 (ix1 q) + ∑ k : Fin 128, _ * _) (Ideal.ofBits .f32 0x00000000#32) = _
  rw [Ideal.ofBits_zero_f32, regroup]
  rfl

end Cert.GraphConv.Ref

end
-- ==== Proof.SharedSum.lean ====
/-
  The two programs build the summed-neighbour array by the same operations.

  Both take the edge list's two rows, wrap the source ids that are negative, gather the source
  rows of the node features and add them up per destination node. The kernel's program does it
  before the call, the reference as its first stages, operation for operation the same; the
  array is carried as it is and the gather and the segment sum are never opened.
-/
import proofs.«181005_j45200235823724_2_alg».proof.Proof.Gen.KernelIdeal.Frame
import proofs.«181005_j45200235823724_2_alg».proof.Proof.Gen.ReferenceIdeal.Read
import Idealize.ShloMosaic.Lib.StableHlo.Run

noncomputable section

namespace Cert.GraphConv.Shared

open Idealize.ShloMosaic Idealize.ShloMosaic.TcCoe Idealize.ShloMosaic.StableHlo

/-- The array the kernel's first window finds at the call is the reference's segment-sum stage of
    the same node features and edge list. -/
theorem agg_array (m : (ℓ : Loc Cert.KernelIdeal.nD Cert.KernelIdeal.τ Cert.KernelIdeal.sig) → Buf (Elt Ideal) ℓ)
    (c : Dev Cert.KernelIdeal.nD) :
    (Cert.KernelIdeal.Gen.V m c Cert.KernelIdeal.main_v13 : Cert.KernelIdeal.S50000x128.Idx → EReal)
      = Cert.ReferenceIdeal.Read.val_main_v13 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1)) := by
  dsimp only [Cert.KernelIdeal.Gen.V, Cert.KernelIdeal.Gen.hostOps0]
  after_results <;> rfl

end Cert.GraphConv.Shared

end
-- ==== Proof.lean ====
/-
  A graph-convolution layer computed by a blocked kernel equals its plain reference, over the
  extended reals.

  Both programs first build, by the same gather and segment sum, the array `agg` of summed
  neighbour rows. The reference then computes, for node `r` and feature `q`,

      max ( (Σ_k agg r k · W_rel q k  +  b q)  +  Σ_k x r k · W_root q k , 0 ),

  and the kernel, block of 5000 nodes by block, with the weights transposed beforehand,

      max ( (Σ_k agg r k · W_rel q k  +  Σ_k x r k · W_root q k)  +  b q , 0 ).

  Narrowing the matrix operands to a shorter float format is the identity at the exact values,
  and the three-term sum does not depend on where the bias is added (commutativity and
  associativity of addition on the extended reals: nothing here needs the inputs to be finite).
  The two results are therefore one function, `Cert.GraphConv.layer`, of `agg` and the arguments:
  `KernelLayer` reads it off the kernel's run block by block, `RefLayer` off the reference's stages,
  and `SharedSum` identifies the two programs' `agg`.

  The kernel's idealization rewrites nothing, so that claim is trivial; the three frame claims
  are the programs' runs with the results dropped.
-/
import proofs.«181005_j45200235823724_2_alg».proof.Defs
import proofs.«181005_j45200235823724_2_alg».proof.Proof.Gen.Kernel
import proofs.«181005_j45200235823724_2_alg».proof.Proof.Gen.Kernel.Frame
import proofs.«181005_j45200235823724_2_alg».proof.Proof.Gen.KernelIdeal
import proofs.«181005_j45200235823724_2_alg».proof.Proof.Gen.KernelIdeal.Frame
import proofs.«181005_j45200235823724_2_alg».proof.Proof.Gen.KernelIdeal.Value
import proofs.«181005_j45200235823724_2_alg».proof.Proof.Gen.ReferenceIdeal
import proofs.«181005_j45200235823724_2_alg».proof.Proof.Gen.ReferenceIdeal.Run
import proofs.«181005_j45200235823724_2_alg».proof.Proof.Gen.ReferenceIdeal.Read
import proofs.«181005_j45200235823724_2_alg».proof.Proof.Gen.Pre_finite_inputs
import proofs.«181005_j45200235823724_2_alg».proof.Proof.LayerSpec
import proofs.«181005_j45200235823724_2_alg».proof.Proof.KernelLayer
import proofs.«181005_j45200235823724_2_alg».proof.Proof.RefLayer
import proofs.«181005_j45200235823724_2_alg».proof.Proof.SharedSum
import Idealize.ShloMosaic.Adequacy
import Idealize.ShloMosaic.Init

noncomputable section

namespace Cert.Proof

open Idealize.ShloMosaic Idealize.SL.Sem

/-- The kernel's program as printed runs and leaves its arguments alone. -/
theorem frame_kernel : Cert.frame_Kernel := fun m ρ _ => Cert.Kernel.Gen.frame m ρ

/-- So does its reading at the exact values. -/
theorem frame_kernelIdeal : Cert.frame_KernelIdeal := fun m ρ _ => Cert.KernelIdeal.Gen.frame m ρ

/-- The reference runs and leaves its arguments alone: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel was rewritten to read it at the exact values. -/
theorem preserves : Cert.preserves_Kernel_KernelIdeal := trivial

/-- From memories that agree on the five arguments both programs end with the layer of the same
    summed-neighbour array, node features, weights and bias. -/
theorem algebraic : Cert.algebraic_KernelIdeal_ReferenceIdeal := by
  intro m ρ m' ρ' _ hagree
  refine ⟨fun c => Cert.GraphConv.Kernel.out m c, Cert.GraphConv.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.GraphConv.Ref.result_eq,
    (hagree c).1, (hagree c).2.1, (hagree c).2.2.1, (hagree c).2.2.2.1, (hagree c).2.2.2.2]
  show _ = Cert.GraphConv.layer (Cert.KernelIdeal.Gen.V m c Cert.KernelIdeal.main_v13) _ _ _ _
  rw [Cert.GraphConv.Shared.agg_array m c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
